-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x176 : Shape := ⟨2, ![8192, 176]⟩
abbrev S_ : Shape := ⟨0, ![]⟩

class Facts : Prop where
  bcast_S_S8192x176 : S_.BroadcastsInDim S8192x176 (![] : Fin 0 → Fin S8192x176.rank)
  reducesTo_S8192x176_S_d0_1 : S8192x176.ReducesTo [0, 1] S_
  h_S_ : 0 < S_.numel

variable [Facts]

def fn {F : FTy → Type} [FloatOps F] (main_arg0 : FVec F S8192x176 .f32) : IVec S_ 1 :=
  let main_v0 : FVec F S8192x176 .f32 := Host.absf main_arg0
  let main_cst : FVec F S_ .f32 := constant S_ .f32 0x7F800000#32
  let main_v1 : FVec F S8192x176 .f32 := broadcastInDim S8192x176 ![] bcast_S_S8192x176 main_cst
  let main_v2 : IVec S8192x176 1 := cmpf .olt main_v0 main_v1
  let main_c : IVec S_ 1 := constantI S_ 1 1#1
  let main_v3 : IVec S_ 1 := (fun x v => Host.reduce IntOp.andi x v reducesTo_S8192x176_S_d0_1 h_S_) main_v2 main_c
  main_v3
-- ==== Kernel.lean ====
abbrev S8192x176 : Shape := ⟨2, ![8192, 176]⟩
abbrev S8192x176x176 : Shape := ⟨3, ![8192, 176, 176]⟩
abbrev S64x176 : Shape := ⟨2, ![64, 176]⟩
abbrev S64x176x176 : Shape := ⟨3, ![64, 176, 176]⟩
abbrev S64x176x1 : Shape := ⟨3, ![64, 176, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x176, .f32⟩
  | .hbm, ⟨1, _⟩ => ⟨S8192x176x176, .f32⟩
  | .local _ .vmem, ⟨0, _⟩ => ⟨S64x176, .f32⟩
  | .local _ .vmem, ⟨1, _⟩ => ⟨S64x176, .f32⟩
  | .local _ .vmem, ⟨2, _⟩ => ⟨S64x176x176, .f32⟩
  | .local _ .vmem, ⟨3, _⟩ => ⟨S64x176x176, .f32⟩
  | _, _ => ⟨S8192x176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x176x176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x176_S64x176_0_0 : ∀ a, (![0, 0] : Fin 2 → Nat) a + S64x176.size a ≤ S64x176.size a
  h_S64x176 : 0 < S64x176.numel
  iota_S64x176x176_d1_w32 : S64x176x176.Iotas .tc 32 [1]
  iota_S64x176x176_d2_w32 : S64x176x176.Iotas .tc 32 [2]
  shapeCasts_S64x176_S64x176x1 : S64x176.ShapeCasts S64x176x1
  shapeCasts_S64x176x1_S64x176x1 : S64x176x1.ShapeCasts S64x176x1
  broadcasts_S64x176x1_S64x176x176 : S64x176x1.Broadcasts S64x176x176
  inb_S64x176x176_S64x176x176_0_0_0 : ∀ a, (![0, 0, 0] : Fin 3 → Nat) a + S64x176x176.size a ≤ S64x176x176.size a
  h_S64x176x176 : 0 < S64x176x176.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x176.size a ≤ S8192x176.size a
  hwx0_0 : ∀ i : grid0.Coords, EltTy.bits .f32 = 32 ∨ (Rect.block (s := S8192x176) S64x176.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x176x176.size a ≤ S8192x176x176.size a
  hwx0_1 : ∀ i : grid0.Coords, EltTy.bits .f32 = 32 ∨ (Rect.block (s := S8192x176x176) S64x176x176.size (cc0_transform_1 i) (hinb0_1 i)).WholeWords (EltTy.packing .f32)

variable [Facts₀]

abbrev win0_0 : Pipeline.Window sig grid0 :=
  Pipeline.Window.ofSpec (Memref.whole main_arg0) S64x176.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x176x176.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x176 : Shape := ⟨2, ![8192, 176]⟩
abbrev S176x176 : Shape := ⟨2, ![176, 176]⟩
abbrev S_ : Shape := ⟨0, ![]⟩
abbrev S8192x1x176 : Shape := ⟨3, ![8192, 1, 176]⟩
abbrev S1x176x176 : Shape := ⟨3, ![1, 176, 176]⟩
abbrev S8192x176x176 : Shape := ⟨3, ![8192, 176, 176]⟩

abbrev nBuf : Space → Nat
  | .hbm => 13
  | .vmem => 0
  | .smem => 0
  | _ => 0

abbrev bufTy : (tb : Table) → Fin (tcTables nBuf tb) → BufTy
  | .hbm, ⟨0, _⟩ => ⟨S8192x176, .f32⟩
  | .hbm, ⟨1, _⟩ => ⟨S176x176, .i32⟩
  | .hbm, ⟨2, _⟩ => ⟨S176x176, .i32⟩
  | .hbm, ⟨3, _⟩ => ⟨S_, .i32⟩
  | .hbm, ⟨4, _⟩ => ⟨S176x176, .i32⟩
  | .hbm, ⟨5, _⟩ => ⟨S176x176, .i32⟩
  | .hbm, ⟨6, _⟩ => ⟨S176x176, .i1⟩
  | .hbm, ⟨7, _⟩ => ⟨S176x176, .f32⟩
  | .hbm, ⟨8, _⟩ => ⟨S8192x1x176, .f32⟩
  | .hbm, ⟨9, _⟩ => ⟨S1x176x176, .f32⟩
  | .hbm, ⟨10, _⟩ => ⟨S8192x176x176, .f32⟩
  | .hbm, ⟨11, _⟩ => ⟨S8192x176x176, .f32⟩
  | .hbm, ⟨12, _⟩ => ⟨S8192x176x176, .f32⟩
  | _, _ => ⟨S8192x176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]

class Facts₀ : Prop where
  bcast_S_S176x176 : S_.BroadcastsInDim S176x176 (![] : Fin 0 → Fin S176x176.rank)
  bcast_S8192x176_S8192x1x176_0_2 : S8192x176.BroadcastsInDim S8192x1x176 (![0, 2] : Fin 2 → Fin S8192x1x176.rank)
  bcast_S176x176_S1x176x176_1_2 : S176x176.BroadcastsInDim S1x176x176 (![1, 2] : Fin 2 → Fin S1x176x176.rank)
  bcast_S8192x1x176_S8192x176x176_0_1_2 : S8192x1x176.BroadcastsInDim S8192x176x176 (![0, 1, 2] : Fin 3 → Fin S8192x176x176.rank)
  bcast_S1x176x176_S8192x176x176_0_1_2 : S1x176x176.BroadcastsInDim S8192x176x176 (![0, 1, 2] : Fin 3 → Fin S8192x176x176.rank)

variable [Facts₀]

class Facts : Prop extends Facts₀ where

variable [Facts]
-- ==== Proof.DiagSpec.lean ====
/-
  The diagonal embedding, as one function of the argument array.

  For a batch of rows `x : [8192, 176]` the result is the array `[8192, 176, 176]` whose entry `(b, p, q)` is `x b p`
  on the diagonal `p = q` and `0` off it. Both programs decide "on the diagonal" by comparing two 32-bit words that
  hold the coordinates `p` and `q`; since both are below 176 the words are equal exactly when the coordinates are
  (`cmpi_eq_coord`). The kernel then SELECTS between `x b p` and `0` on that bit; the reference MULTIPLIES `x b q` by
  the bit read as a number, `1` or `0`. On the extended reals `a * 1 = a` and `a * 0 = 0` for every `a`, infinite or
  not, and on the diagonal `x b q` is `x b p`: the two agree everywhere (`mul_bit`), with no use of finiteness.
-/
import Idealize.ShloMosaic.PureOps.Ideal
import Idealize.ShloMosaic.Lib.ValueIdx

noncomputable section

namespace Cert.DiagEmbed

open Idealize.ShloMosaic Idealize.ShloMosaic.ValueIdx

/-- Entry `(b, p, q)` of the diagonal embedding of `x`. -/
def entry (x : FVec Ideal ⟨2, ![8192, 176]⟩ .f32) (b : Fin 8192) (p q : Fin 176) : EReal :=
  if p.val = q.val then x (ix2 b p) else 0

/-- The diagonal embedding of `x`, index by index. -/
def embed (x : FVec Ideal ⟨2, ![8192, 176]⟩ .f32) : FVec Ideal ⟨3, ![8192, 176, 176]⟩ .f32 :=
  fun i => entry x (i 0) (i 1) (i 2)

theorem embed_apply (x : FVec Ideal ⟨2, ![8192, 176]⟩ .f32) (b : Fin 8192) (p q : Fin 176) :
    embed x (ix3 b p q) = entry x b p q := rfl

/-! ## The comparison of two coordinates held in 32-bit words -/

/-- Two coordinates below 176, written as 32-bit words, compare equal exactly when they are equal. -/
theorem cmpi_eq_coord (p q : Nat) (hp : p < 176) (hq : q < 176) :
    IntOp.cmpi .eq (BitVec.ofNat 32 p) (BitVec.ofNat 32 q) = if p = q then 1#1 else 0#1 := by
  unfold IntOp.cmpi
  by_cases h : p = q
  · subst h; simp
  · have hne : BitVec.ofNat 32 p ≠ BitVec.ofNat 32 q := by
      intro e
      have e' := congrArg BitVec.toNat e
      rw [BitVec.toNat_ofNat, BitVec.toNat_ofNat, Nat.mod_eq_of_lt (by omega), Nat.mod_eq_of_lt (by omega)] at e'
      exact h e'
    rw [if_neg h, beq_eq_false_iff_ne.mpr hne]
    rfl

/-- A select on that comparison is the `if` on the coordinates. -/
theorem select_coord {α : Type} (p q : Nat) (hp : p < 176) (hq : q < 176) (a c : α) :
    Scalar.select (IntOp.cmpi .eq (BitVec.ofNat 32 p) (BitVec.ofNat 32 q)) a c = if p = q then a else c := by
  rw [cmpi_eq_coord p q hp hq]
  by_cases h : p = q
  · rw [if_pos h, if_pos h]; exact select_one a c
  · rw [if_neg h, if_neg h]; exact select_zero a c

/-- That comparison (the left word with a zero word added first), read as an unsigned number at the ideal values, is
    `1` on the diagonal and `0` off it. -/
theorem uitofp_coord (p q : Nat) (hp : p < 176) (hq : q < 176) :
    FloatOps.uitofp (F := Ideal) .f32 (IntOp.cmpi .eq (IntOp.addi (BitVec.ofNat 32 p) 0#32) (BitVec.ofNat 32 q))
      = if p = q then (1 : EReal) else 0 := by
  have h0 : IntOp.addi (BitVec.ofNat 32 p) 0#32 = BitVec.ofNat 32 p := by unfold IntOp.addi; exact BitVec.add_zero _
  rw [h0, cmpi_eq_coord p q hp hq]
  by_cases h : p = q
  · rw [if_pos h, if_pos h]
    show (((1#1 : BitVec 1).toNat : ℝ) : EReal) = 1
    simp
  · rw [if_neg h, if_neg h]
    show (((0#1 : BitVec 1).toNat : ℝ) : EReal) = 0
    simp

/-! ## The law that joins the two sides -/

/-- `x b q` times the diagonal's bit as a number is `x b p` on the diagonal and `0` off it: on the extended reals
    `a * 1 = a` and `a * 0 = 0` whatever `a` is, and on the diagonal `q` is `p`. -/
theorem mul_bit (x : FVec Ideal ⟨2, ![8192, 176]⟩ .f32) (b : Fin 8192) (p q : Fin 176) :
    x (ix2 b q) * (if p.val = q.val then (1 : EReal) else 0) = entry x b p q := by
  unfold entry
  by_cases h : p.val = q.val
  · obtain rfl : p = q := Fin.ext h
    rw [if_pos h, if_pos h, mul_one]
  · rw [if_neg h, if_neg h, mul_zero]

end Cert.DiagEmbed

end
-- ==== Proof.RefEmbed.lean ====
/-
  The reference's result is the diagonal embedding.

  The reference builds the identity matrix on the host — an iota along each axis of `[176, 176]`, compared, the bit turned
  into a number — broadcasts it over the batch, broadcasts `x` over the middle axis (entry `(b, p, q)` reads `x b q`),
  and multiplies. Read at the index `(b, p, q)` this is `x b q` times the bit "p = q" as a number, which is the embedding's
  entry by `DiagEmbed.mul_bit`.
-/
import proofs.«115204_j41180146434078_2_alg».proof.Proof.Gen.ReferenceIdeal.Read
import proofs.«115204_j41180146434078_2_alg».proof.Proof.DiagSpec

noncomputable section

namespace Cert.ReferenceIdeal.RefValue

open Cert.ReferenceIdeal Cert.ReferenceIdeal.Read Idealize.ShloMosaic Idealize.ShloMosaic.ValueIdx

/-- Through the two broadcasts of `x`, entry `(b, p, q)` reads `x` at `(b, q)`. -/
theorem idx_x (b : Fin 8192) (p q : Fin 176) : idx_main_v6 (idx_main_v8 (ix3 b p q)) = ix2 b q :=
  funext fun a => Fin.ext (by match a with | ⟨0, _⟩ => rfl | ⟨1, _⟩ => rfl)

/-- The reference's last stage, read at `(b, p, q)`: `x b q` times the diagonal's bit as a number. -/
theorem ref_apply (x : FVec Ideal S8192x176 .f32) (b : Fin 8192) (p q : Fin 176) :
    val_main_v10 (F := Ideal) x (ix3 b p q) = x (ix2 b q) * (if p.val = q.val then (1 : EReal) else 0) := by
  rw [val_main_v10_apply, val_main_v8_apply, val_main_v6_apply, val_main_v9_apply, val_main_v7_apply, val_main_v5_apply,
    val_main_v4_apply, val_main_v3_apply, val_main_v0_apply, val_main_v2_apply, val_main_c_apply, val_main_v1_apply, idx_x]
  show x (ix2 b q) * FloatOps.uitofp (F := Ideal) .f32
      (IntOp.cmpi .eq (IntOp.addi (BitVec.ofNat 32 p.val) 0#32) (BitVec.ofNat 32 q.val)) = _
  rw [Cert.DiagEmbed.uitofp_coord p.val q.val p.isLt q.isLt]

/-- The reference's result array is the diagonal embedding of its argument. -/
theorem ref_embed (x : FVec Ideal S8192x176 .f32) : val_main_v10 (F := Ideal) x = Cert.DiagEmbed.embed x := by
  funext i
  obtain ⟨b, p, q, rfl⟩ : ∃ (b : Fin 8192) (p q : Fin 176), i = ix3 b p q := ⟨i 0, i 1, i 2, eq_ix3 i⟩
  rw [ref_apply, Cert.DiagEmbed.embed_apply]
  exact Cert.DiagEmbed.mul_bit x b p q

end Cert.ReferenceIdeal.RefValue

end
-- ==== Proof.BodyEmbed.lean ====
/-
  What the kernel's body stores, read at an index of the block.

  On a block `v` of 64 rows the body stores the `[64, 176, 176]` value whose entry `(b, p, q)` selects, on the bit
  "iota along axis 1 equals iota along axis 2" — that is, `p = q` —, between the row entry `v b p` (the block viewed
  `[64, 176, 1]` and broadcast along the last axis) and the zero word.
-/
import proofs.«115204_j41180146434078_2_alg».proof.Proof.Gen.KernelIdeal.Skeleton
import proofs.«115204_j41180146434078_2_alg».proof.Proof.DiagSpec
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The block viewed `[64, 176, 1]` and broadcast to `[64, 176, 176]` reads `v b p` at `(b, p, q)`: the broadcast forgets
    the last coordinate, and the view keeps the row-major position `b * 176 + p`. -/
theorem column_apply (v : FVec Ideal S64x176 .f32) (h1 : S64x176.ShapeCasts S64x176x1) (h2 : S64x176x1.ShapeCasts S64x176x1)
    (h3 : S64x176x1.Broadcasts S64x176x176) (b : Fin 64) (p q : Fin 176) :
    broadcastTo S64x176x176 (shapeCast S64x176x1 (shapeCast S64x176x1 v h1) h2) h3 (ix3 b p q) = v (ix2 b p) := by
  rw [shapeCast_self]
  refine (broadcastTo_apply _ h3 (ix3 b p q) (ix3 b p (⟨0, Nat.one_pos⟩ : Fin 1)) (fun a => ?_)).trans ?_
  · match a with
    | ⟨0, _⟩ => show b.val = if (64 : Nat) = 1 then 0 else b.val; rw [if_neg (by decide)]
    | ⟨1, _⟩ => show p.val = if (176 : Nat) = 1 then 0 else p.val; rw [if_neg (by decide)]
    | ⟨2, _⟩ => show 0 = if (1 : Nat) = 1 then 0 else q.val; rw [if_pos rfl]
  · refine shapeCast_apply v h1 _ (ix2 b p) ?_
    rw [Shape.rowMajor_val_two, Shape.rowMajor_val_three]
    show b.val * 176 + p.val = (b.val * 176 + p.val) * 1 + 0
    omega

/-- The select on "iota along axis 1 = iota along axis 2", read at `(b, p, q)`, is the `if` on `p = q`. -/
theorem select_iota_apply (h1 : S64x176x176.Iotas .tc 32 [1]) (h2 : S64x176x176.Iotas .tc 32 [2])
    (a c : FVec Ideal S64x176x176 .f32) (b : Fin 64) (p q : Fin 176) :
    select (cmpi .eq (iota .tc S64x176x176 32 [1] h1) (iota .tc S64x176x176 32 [2] h2)) a c (ix3 b p q)
      = if p.val = q.val then a (ix3 b p q) else c (ix3 b p q) := by
  show Scalar.select (IntOp.cmpi .eq (iota .tc S64x176x176 32 [1] h1 (ix3 b p q)) (iota .tc S64x176x176 32 [2] h2 (ix3 b p q))) _ _ = _
  rw [iota_single_apply, iota_single_apply]
  exact Cert.DiagEmbed.select_coord p.val q.val p.isLt q.isLt _ _

/-- THE PAYLOAD AT AN INDEX: on the diagonal the row entry, off it zero. -/
theorem pay_apply (v : FVec Ideal S64x176 .f32) (b : Fin 64) (p q : Fin 176) :
    k0_pay1 (F := Ideal) v (ix3 b p q) = if p.val = q.val then v (ix2 b p) else 0 := by
  unfold k0_pay1
  refine (select_iota_apply _ _ _ _ b p q).trans ?_
  by_cases h : p.val = q.val
  · rw [if_pos h, if_pos h]; exact column_apply v _ _ _ b p q
  · rw [if_neg h, if_neg h]; exact Ideal.ofBits_zero_f32

end Cert.KernelIdeal.Body

end
-- ==== Proof.ArrayEmbed.lean ====
/-
  From the blocks to the whole array.

  The grid has 128 points; point `t` fetches rows `64 t … 64 t + 63` of `x` and writes back rows `64 t … 64 t + 63` of
  the result, all of axes 1 and 2. What point `t` writes back is therefore block `t` of the diagonal embedding of `x`
  (the body's payload at `(b, p, q)` is the embedding's entry at `(64 t + b, p, q)`), every index `(k, p, q)` of the
  result lies in the block of the point `k / 64`, and so the result array ends holding the embedding.
-/
import proofs.«115204_j41180146434078_2_alg».proof.Proof.Gen.KernelIdeal.Value
import proofs.«115204_j41180146434078_2_alg».proof.Proof.BodyEmbed
import proofs.«115204_j41180146434078_2_alg».proof.Proof.DiagSpec
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The index maps, decided over the 128 points: along axis 0 both windows' block index is the point's number, along
    the other axes it is 0. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- The input block of point `t` is rows `64 t … 64 t + 63` of the argument. -/
theorem iblk_apply (c : Dev nD) (t : Fin cfg0.N) (b : Fin 64) (p : Fin 176) (k : Fin 8192) (hk : k.val = t.val * 64 + b.val) :
    (iblk m c 0 t : FVec Ideal S64x176 .f32) (ix2 b p) = (V m c main_arg0 : FVec Ideal S8192x176 .f32) (ix2 k p) := by
  obtain ⟨e0, e1, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 2) * 64 + 1 * b.val = k.val; rw [e0, hk]; omega
  | ⟨1, _⟩ => show win0_0.index t (1 : Fin 2) * 176 + 1 * p.val = p.val; rw [e1]; omega

/-- At one point: if the block `v` is rows `64 n … 64 n + 63` of `x`, the body's payload at `(b, p, q)` is the embedding
    of `x` at `(64 n + b, p, q)`. -/
theorem point_eq (x : FVec Ideal S8192x176 .f32) (v : FVec Ideal S64x176 .f32) (n : Nat)
    (hv : ∀ (b : Fin 64) (p : Fin 176) (k : Fin 8192), k.val = n * 64 + b.val → v (ix2 b p) = x (ix2 k p))
    (j : S64x176x176.Idx) (i : S8192x176x176.Idx)
    (h0 : (i 0).val = n * 64 + (j 0).val) (h1 : (i 1).val = (j 1).val) (h2 : (i 2).val = (j 2).val) :
    k0_pay1 (F := Ideal) v j = Cert.DiagEmbed.embed x i := by
  obtain ⟨b, p, q, rfl⟩ : ∃ (b : Fin 64) (p q : Fin 176), j = ix3 b p q := ⟨j 0, j 1, j 2, eq_ix3 j⟩
  obtain ⟨k, p', q', rfl⟩ : ∃ (k : Fin 8192) (p' q' : Fin 176), i = ix3 k p' q' := ⟨i 0, i 1, i 2, eq_ix3 i⟩
  obtain rfl : p' = p := Fin.ext h1
  obtain rfl : q' = q := Fin.ext h2
  rw [Body.pay_apply, Cert.DiagEmbed.embed_apply]
  unfold Cert.DiagEmbed.entry
  by_cases h : p'.val = q'.val
  · rw [if_pos h, if_pos h]; exact hv b p' k h0
  · rw [if_neg h, if_neg h]

/-- WHAT POINT `t` WRITES BACK is block `t` of the embedding of the argument. -/
theorem flushed_eq (c : Dev nD) (t : Fin cfg0.N) :
    (dats m 0 c).flushed 1 t
      = ((cfg0.win 1).blk t).view.read (Elt Ideal) (Cert.DiagEmbed.embed (V m c main_arg0)) := by
  rw [Value.flushed1]
  unfold out0_1
  rw [View.canon_unit_zero zero3]
  simp only [View.ld_unit_zero (S := S64x176) zero2]
  obtain ⟨-, -, e2, e3, e4⟩ := idx_facts t
  funext j
  show k0_pay1 (F := Ideal) (iblk m c 0 t) j
    = Cert.DiagEmbed.embed (V m c main_arg0) (((cfg0.win 1).blk t).view.emb j)
  refine point_eq (V m c main_arg0) (iblk m c 0 t) t.val (fun b p k hk => iblk_apply m c t b p k hk) j _ ?_ ?_ ?_
  · show win0_1.index t (0 : Fin 3) * 64 + 1 * (j 0).val = t.val * 64 + (j 0).val; rw [e2]; omega
  · show win0_1.index t (1 : Fin 3) * 176 + 1 * (j 1).val = (j 1).val; rw [e3]; omega
  · show win0_1.index t (2 : Fin 3) * 176 + 1 * (j 2).val = (j 2).val; rw [e4]; omega

/-- An index of the result is in point `t`'s block iff each coordinate is in the block's range on its axis. -/
theorem mem_blk (t : Fin cfg0.N) (i : S8192x176x176.Idx) :
    i ∈ ((cfg0.win 1).blk t).view.set ↔ ∀ a : Fin 3, win0_1.index t a * S64x176x176.size a ≤ (i a).val
      ∧ (i a).val < win0_1.index t a * S64x176x176.size a + S64x176x176.size a := by
  show i ∈ ((View.whole main_v0).slice (win0_1.rect t)).set ↔ _
  rw [View.set_slice_whole, Rect.mem_set_unit]
  exact Iff.rfl

/-- Every index `(k, p, q)` of the result is in the block of the point `k / 64`. -/
theorem cover (i : S8192x176x176.Idx) :
    ∃ t : Fin cfg0.N, (cfg0.win 1).flush t = true ∧ i ∈ ((cfg0.win 1).blk t).view.set := by
  have hi0 : (i 0).val < 8192 := (i 0).isLt
  have hi1 : (i 1).val < 176 := (i 1).isLt
  have hi2 : (i 2).val < 176 := (i 2).isLt
  have hN : grid0.N = 128 := N_0
  obtain ⟨t, ht⟩ : ∃ t : Fin cfg0.N, t.val = (i 0).val / 64 :=
    ⟨⟨(i 0).val / 64, by show (i 0).val / 64 < grid0.N; rw [hN]; omega⟩, rfl⟩
  obtain ⟨-, -, e2, e3, e4⟩ := idx_facts t
  refine ⟨t, flush0_1 t, ?_⟩
  rw [mem_blk]
  intro a
  match a with
  | ⟨0, _⟩ =>
    show win0_1.index t (0 : Fin 3) * 64 ≤ (i 0).val ∧ (i 0).val < win0_1.index t (0 : Fin 3) * 64 + 64
    rw [e2, ht]; omega
  | ⟨1, _⟩ =>
    show win0_1.index t (1 : Fin 3) * 176 ≤ (i 1).val ∧ (i 1).val < win0_1.index t (1 : Fin 3) * 176 + 176
    rw [e3]; omega
  | ⟨2, _⟩ =>
    show win0_1.index t (2 : Fin 3) * 176 ≤ (i 2).val ∧ (i 2).val < win0_1.index t (2 : Fin 3) * 176 + 176
    rw [e4]; omega

/-- THE RESULT ARRAY after the run is the diagonal embedding of the argument. -/
theorem final (c : Dev nD) :
    (dats m 0 c).arrAt 1 cfg0.N = Cert.DiagEmbed.embed (m ((c : Thread nD τ).loc main_arg0)) :=
  (dats m 0 c).arrAt_eq_of_cover 1 (Cert.DiagEmbed.embed (V m c main_arg0)) (fun t _ => flushed_eq m c t) cover

/-- The kernel's run, read: the result array at the embedding of the argument, the argument unchanged. -/
theorem run : θ_run defs (onTc (τ := τ) (main (F := Ideal))) ⟨m, fun _ => 0, ρ⟩ fun r => ∀ c : Dev nD,
      r.2.mem ((c : Thread nD τ).loc main_v0) = Cert.DiagEmbed.embed (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.lean ====
/-
  A diagonal embedding, by a kernel and by jnp: the two results are equal as extended reals.

  For `x : [8192, 176]` both programs produce the array `[8192, 176, 176]` whose entry `(b, p, q)` is `x b p` when
  `p = q` and `0` otherwise (Proof/DiagSpec.lean, `DiagEmbed.embed`).
  * The kernel works on blocks of 64 rows over a grid of 128 points. Its body compares an iota along axis 1 with an iota
    along axis 2 and selects, entry by entry, between the row entry `x b p` and zero (Proof/BodyEmbed.lean); point `t`
    writes back rows `64 t … 64 t + 63` of the result, the 128 blocks fill the result, and so the result array is the
    embedding (Proof/ArrayEmbed.lean).
  * The reference builds the `176 × 176` identity matrix as numbers `1` and `0` and multiplies it, broadcast over the
    batch, with `x` broadcast over the middle axis: entry `(b, p, q)` is `x b q` times the number of the bit "p = q"
    (Proof/RefEmbed.lean).
  The law that joins them holds on all of the extended reals, not only on the finite ones: `a * 1 = a`, `a * 0 = 0`, and
  on the diagonal `x b q` is `x b p`. So the precondition is never opened. The idealization rewrote nothing, so that
  the idealized kernel is the kernel's own text read at the ideal values is immediate; the three frames are the generated
  ones (the reference's is its generated run with the result dropped).
-/
import proofs.«115204_j41180146434078_2_alg».proof.Defs
import proofs.«115204_j41180146434078_2_alg».proof.Proof.Gen.Kernel
import proofs.«115204_j41180146434078_2_alg».proof.Proof.Gen.Kernel.Frame
import proofs.«115204_j41180146434078_2_alg».proof.Proof.Gen.KernelIdeal
import proofs.«115204_j41180146434078_2_alg».proof.Proof.Gen.KernelIdeal.Frame
import proofs.«115204_j41180146434078_2_alg».proof.Proof.Gen.KernelIdeal.Value
import proofs.«115204_j41180146434078_2_alg».proof.Proof.Gen.ReferenceIdeal
import proofs.«115204_j41180146434078_2_alg».proof.Proof.Gen.ReferenceIdeal.Run
import proofs.«115204_j41180146434078_2_alg».proof.Proof.Gen.ReferenceIdeal.Read
import proofs.«115204_j41180146434078_2_alg».proof.Proof.Gen.Pre_finite_inputs
import proofs.«115204_j41180146434078_2_alg».proof.Proof.DiagSpec
import proofs.«115204_j41180146434078_2_alg».proof.Proof.RefEmbed
import proofs.«115204_j41180146434078_2_alg».proof.Proof.ArrayEmbed
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten on the way to the ideal values. -/
theorem preserves : Cert.preserves_Kernel_KernelIdeal := trivial

/-- From memories that agree on `x`, the kernel's result array ends at the diagonal embedding of `x` (the blocks, put
    together) and the reference's at `x` broadcast times the identity matrix broadcast, which is the same embedding entry
    by entry. -/
theorem algebraic : Cert.algebraic_KernelIdeal_ReferenceIdeal := by
  intro m ρ m' ρ' _ hagree
  refine ⟨fun c => Cert.DiagEmbed.embed (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_embed, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
